-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8191 : Shape := ⟨1, ![8191]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8191 : S_.BroadcastsInDim S8191 (![] : Fin 0 → Fin S8191.rank)
  reducesTo_S8191_S_d0 : S8191.ReducesTo [0] S_

variable [Facts]

def fn {F : FTy → Type} [FloatOps F] (main_arg0 : FVec F S8192x4096 .f32) (main_arg1 : FVec F S8191 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8191 .f32 := Host.absf main_arg1
  let main_cst_0 : FVec F S_ .f32 := constant S_ .f32 0x7F800000#32
  let main_v5 : FVec F S8191 .f32 := broadcastInDim S8191 ![] bcast_S_S8191 main_cst_0
  let main_v6 : IVec S8191 1 := cmpf .olt main_v4 main_v5
  let main_c_1 : IVec S_ 1 := constantI S_ 1 1#1
  let main_v7 : IVec S_ 1 := (fun x v => Host.reduce IntOp.andi x v reducesTo_S8191_S_d0 h_S_) main_v6 main_c_1
  let main_v8 : IVec S_ 1 := andi main_v3 main_v7
  main_v8
-- ==== Kernel.lean ====
abbrev S8192x4096 : Shape := ⟨2, ![8192, 4096]⟩
abbrev S8191 : Shape := ⟨1, ![8191]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S1024x1024 : Shape := ⟨2, ![1024, 1024]⟩

abbrev nBuf : Space → Nat
  | .hbm => 20
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8191, .f32⟩
  | .hbm, ⟨2, _⟩ => ⟨S4096, .i32⟩
  | .hbm, ⟨3, _⟩ => ⟨S4096x1, .i32⟩
  | .hbm, ⟨4, _⟩ => ⟨S4096, .i32⟩
  | .hbm, ⟨5, _⟩ => ⟨S1x4096, .i32⟩
  | .hbm, ⟨6, _⟩ => ⟨S8191, .bf16⟩
  | .hbm, ⟨7, _⟩ => ⟨S4096x4096, .i32⟩
  | .hbm, ⟨8, _⟩ => ⟨S4096x4096, .i32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i1⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S4096x4096x1, .i32⟩
  | .hbm, ⟨18, _⟩ => ⟨S4096x4096, .bf16⟩
  | .hbm, ⟨19, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bitsLt_bf16_f32 : FTy.bits .bf16 < FTy.bits .f32
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  gather_S8191_S4096x4096x1_S4096x4096_n_0_n_n_0_2_1_wf : GatherDims.WF S8191 S4096x4096x1 S4096x4096 [] [0] [] [0] [] 2 ![1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def gather_S8191_S4096x4096x1_S4096x4096_n_0_n_n_0_2_1 : GatherDims S8191 S4096x4096x1 S4096x4096 where
  offsetDims := []
  collapsedSliceDims := [0]
  operandBatchingDims := []
  startIndicesBatchingDims := []
  startIndexMap := [0]
  indexVectorDim := 2
  sliceSizes := ![1]
  wf := gather_S8191_S4096x4096x1_S4096x4096_n_0_n_n_0_2_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8191 : Shape := ⟨1, ![8191]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8191, .f32⟩
  | .hbm, ⟨2, _⟩ => ⟨S4096, .i32⟩
  | .hbm, ⟨3, _⟩ => ⟨S4096x1, .i32⟩
  | .hbm, ⟨4, _⟩ => ⟨S4096, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S4096x4096, .i32⟩
  | .hbm, ⟨11, _⟩ => ⟨S4096x4096, .i1⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S4096x4096x1, .i32⟩
  | .hbm, ⟨17, _⟩ => ⟨S4096x4096, .f32⟩
  | .hbm, ⟨18, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  gather_S8191_S4096x4096x1_S4096x4096_n_0_n_n_0_2_1_wf : GatherDims.WF S8191 S4096x4096x1 S4096x4096 [] [0] [] [0] [] 2 ![1]
  dot_S8192x4096_S4096x4096_S8192x4096_1_1_0_0_n_n_wf : DotDims.WF S8192x4096 S4096x4096 S8192x4096 [1] [1] [0] [0] [] []

variable [Facts₀]

def gather_S8191_S4096x4096x1_S4096x4096_n_0_n_n_0_2_1 : GatherDims S8191 S4096x4096x1 S4096x4096 where
  offsetDims := []
  collapsedSliceDims := [0]
  operandBatchingDims := []
  startIndicesBatchingDims := []
  startIndexMap := [0]
  indexVectorDim := 2
  sliceSizes := ![1]
  wf := gather_S8191_S4096x4096x1_S4096x4096_n_0_n_n_0_2_1_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.BlockPayload.lean ====
/-
  What one grid point's body leaves in the output block, entry by entry, on the extended reals.

  At the first point of a run along the contraction axis the body first fills the block with zeros. At every point it
  then adds to the block the product of the point's 1024 x 1024 block of x with its 1024 x 1024 block of the weight
  matrix: the entry (r, q) gains the sum over k < 1024 of xblock(r, k) * wblock(k, q). The change of float format of
  the x block before the product is the identity on the extended reals, and the product is taken into a zero
  accumulator, so nothing but that sum is added.
-/
import proofs.«174518_j35399120454032_2_alg».proof.Proof.Gen.KernelIdeal.Skeleton
import proofs.«174518_j35399120454032_2_alg».proof.Proof.LibMatmulRows
import Idealize.ShloMosaic.Lib.Pipeline.Value
import Idealize.ShloMosaic.Lib.ValueIdx
import Idealize.ShloMosaic.PureOps.Ideal.Laws

noncomputable section

open scoped BigOperators

namespace Cert.BlockPayload

open Cert.KernelIdeal Cert.KernelIdeal.Gen
open Idealize.ShloMosaic Idealize.ShloMosaic.ValueIdx

/-- A free axis of the left operand of the block product is the output's row. -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- The free axis of the right operand of the block product is the output's column. -/
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The fill at a run's first point: every entry is zero. -/
theorem fill_apply (y : S1024x1024.Idx) : k0_pay1 (F := Ideal) y = (0 : EReal) := by
  unfold k0_pay1
  show Ideal.ofBits .f32 0x00000000#32 = 0
  exact Ideal.ofBits_zero_f32

/-- One point's update of the block: the entry (r, q) gains the sum over k of xblock(r, k) * wblock(k, q). -/
theorem update_apply (xb acc : Vec Ideal S1024x1024 .f32) (wb : Vec Ideal S1024x1024 .bf16) (y : S1024x1024.Idx) :
    k0_pay2 (F := Ideal) xb acc wb y = acc y + ∑ k : Fin 1024, xb (ix2 (y 0) k) * wb (ix2 k (y 1)) := by
  unfold k0_pay2
  show (shapeCast S1024x1024 acc shapeCasts_S1024x1024_S1024x1024) y
      + FloatOps.matmul dot_S1024x1024_S1024x1024_S1024x1024_1_0_0_1_n_n none
          (truncf (F := Ideal) .bf16 xb bitsLt_bf16_f32) (shapeCast S1024x1024 wb shapeCasts_S1024x1024_S1024x1024)
          (constant (F := Ideal) S1024x1024 .f32 0x00000000#32) y = _
  rw [shapeCast_self, shapeCast_self]
  refine congrArg (acc y + ·) ?_
  exact MatmulRows.matmul_zero_apply dot_S1024x1024_S1024x1024_S1024x1024_1_0_0_1_n_n none rfl rfl rfl rfl
    lhs_row rhs_col (truncf (F := Ideal) .bf16 xb bitsLt_bf16_f32) wb y

end Cert.BlockPayload

end
-- ==== Proof.HankelMatrix.lean ====
/-
  The reference, index by index.

  The weight matrix is W(i, j) = d[i + j]: the reference gathers the diagonals vector d at the integer matrix whose
  entry (i, j) is the 32-bit word of i plus the 32-bit word of j, passed through the wrap-around of a negative start
  index (add the length when the word is negative) and then clamped into the vector by the gather. Every step after
  the addition is the same function of the one word i + j, and the addition of words is commutative, so W is
  symmetric: W(i, j) = W(j, i). Nothing about the size of i + j is needed for that.

  The result is out(b, i) = sum over j < 4096 of x(b, j) * W(i, j) on the extended reals (the host's dot_general
  contracting axis 1 of x with axis 1 of W).
-/
import proofs.«174518_j35399120454032_2_alg».proof.Proof.Gen.ReferenceIdeal.Read
import Idealize.ShloMosaic.Lib.ValueIdx

noncomputable section

open scoped BigOperators

namespace Cert.Hankel

open Cert.ReferenceIdeal Cert.ReferenceIdeal.Gen Cert.ReferenceIdeal.Read
open Idealize.ShloMosaic Idealize.ShloMosaic.ValueIdx

/-- What becomes of the word i + j before the gather reads it: a negative word is moved up by the vector's length. -/
def wrap (w : BitVec 32) : BitVec 32 :=
  Scalar.select (IntOp.cmpi .slt w 0#32) (IntOp.addi w 8191#32) w

/-- The entry of the diagonals vector that a start word selects: the word read as a signed integer, clamped into
    the vector's 8191 entries. -/
def pick (d : S8191.Idx → EReal) (w : BitVec 32) : EReal :=
  d (ix1 ⟨min w.toInt.toNat (8191 - 1), by omega⟩)

/-- The matrix of start words at (i, j) is the wrapped sum of the words of i and j. -/
theorem start_apply (i : S4096x4096.Idx) :
    val_main_v11 (F := Ideal) i
      = wrap (IntOp.addi (BitVec.ofNat 32 (i 0).val) (BitVec.ofNat 32 (i 1).val)) := by
  simp only [val_main_v11_apply, val_main_v8_apply, val_main_v10_apply, val_main_v6_apply, val_main_v7_apply,
    val_main_v9_apply, val_main_c_apply, val_main_c_0_apply, val_main_v4_apply, val_main_v5_apply,
    val_main_v1_apply, val_main_v3_apply, val_main_v0_apply, val_main_v2_apply]
  rfl

/-- The start words are symmetric in (i, j): the addition of words is commutative. -/
theorem start_symm (a b : Fin 4096) :
    val_main_v11 (F := Ideal) (ix2 a b) = val_main_v11 (F := Ideal) (ix2 b a) := by
  rw [start_apply, start_apply]
  show wrap (IntOp.addi (BitVec.ofNat 32 a.val) (BitVec.ofNat 32 b.val))
    = wrap (IntOp.addi (BitVec.ofNat 32 b.val) (BitVec.ofNat 32 a.val))
  exact congrArg wrap (BitVec.add_comm _ _)

/-- The gathered weight matrix at an index: the diagonals vector at the entry the start word selects. -/
theorem weight_apply (d : S8191.Idx → EReal) (y : S4096x4096.Idx) :
    val_main_v13 (F := Ideal) d y = pick d (val_main_v11 (F := Ideal) y) := by
  unfold val_main_v13
  show Host.gather (takeDims 8191 4096 4096 gather_S8191_S4096x4096x1_S4096x4096_n_0_n_n_0_2_1_wf) d
    (val_main_v12 (F := Ideal)) y = _
  rw [gather_take_apply (by decide)]
  show pick d (val_main_v12 (F := Ideal) (takeIdx y)) = _
  refine congrArg (pick d) ?_
  rw [val_main_v12_apply]
  rfl

/-- The weight matrix is symmetric. -/
theorem weight_symm (d : S8191.Idx → EReal) (a b : Fin 4096) :
    val_main_v13 (F := Ideal) d (ix2 a b) = val_main_v13 (F := Ideal) d (ix2 b a) := by
  rw [weight_apply, weight_apply, start_symm]

/-- The reference's result at (b, o): the sum over j of x(b, j) * W(o, j). -/
theorem reference_apply (x : S8192x4096.Idx → EReal) (d : S8191.Idx → EReal) (b : Fin 8192) (o : Fin 4096) :
    val_main_v14 (F := Ideal) x d (ix2 b o)
      = ∑ j : Fin 4096, x (ix2 b j) * val_main_v13 (F := Ideal) d (ix2 o j) := by
  rw [val_main_v14_apply]
  refine Finset.sum_congr rfl fun j _ => ?_
  have el : lidx_main_v14 (ix2 b o) j = ix2 b j :=
    funext fun a => Fin.ext (by match a with | ⟨0, _⟩ => rfl | ⟨1, _⟩ => rfl)
  have er : ridx_main_v14 (ix2 b o) j = ix2 o j :=
    funext fun a => Fin.ext (by match a with | ⟨0, _⟩ => rfl | ⟨1, _⟩ => rfl)
  rw [el, er]

end Cert.Hankel

end
-- ==== Proof.LibBlockSum.lean ====
/-
  Two small tools for a matrix product accumulated block by block along its contraction axis.

  (1) A sum over the first J * B naturals is the sum, over the J consecutive blocks of length B, of each block's
      sum: the block s holds the naturals B * s, ..., B * s + (B - 1). Only commutativity and associativity of
      the addition are used, so the statement holds in any commutative additive monoid -- in particular on the
      extended reals, where no finiteness is needed.
  (2) A rank-2 array read at a pair of NATURAL coordinates (zero outside the extents). It lets a block's entry
      "block index * block size + offset" be written with plain arithmetic on naturals, and agrees with the
      array at every genuine index.
-/
import Idealize.ShloMosaic.Lib.ValueIdx

noncomputable section

open scoped BigOperators

namespace Idealize.ShloMosaic.BlockSum

open Idealize.ShloMosaic Idealize.ShloMosaic.ValueIdx

/-- The sum over the first J * B naturals, block by block. -/
theorem sum_range_blocks {β : Type*} [AddCommMonoid β] (f : ℕ → β) (J B : ℕ) :
    ∑ j ∈ Finset.range (J * B), f j = ∑ s ∈ Finset.range J, ∑ k ∈ Finset.range B, f (B * s + k) := by
  induction J with
  | zero => simp
  | succ J ih =>
    rw [Nat.succ_mul, Finset.sum_range_add, ih, Finset.sum_range_succ, Nat.mul_comm J B]

/-- A rank-2 array of extended reals read at natural coordinates; zero outside the extents. -/
def at2 {R C : ℕ} (A : (⟨2, ![R, C]⟩ : Shape).Idx → EReal) (r c : ℕ) : EReal :=
  if h : r < R ∧ c < C then A (ix2 ⟨r, h.1⟩ ⟨c, h.2⟩) else 0

/-- At the coordinates of a genuine index the natural-coordinate read is the array. -/
theorem at2_val {R C : ℕ} (A : (⟨2, ![R, C]⟩ : Shape).Idx → EReal) (i : (⟨2, ![R, C]⟩ : Shape).Idx) :
    at2 A (i 0).val (i 1).val = A i := by
  unfold at2
  rw [dif_pos ⟨(i 0).isLt, (i 1).isLt⟩]
  exact congrArg A (eq_ix2 i).symm

/-- The same, for an index given by its two coordinates. -/
theorem at2_ix2 {R C : ℕ} (A : (⟨2, ![R, C]⟩ : Shape).Idx → EReal) (r : Fin R) (c : Fin C) :
    at2 A r.val c.val = A (ix2 r c) := by
  unfold at2
  rw [dif_pos ⟨r.isLt, c.isLt⟩]

/-- A sum over a finite ordinal of a natural-coordinate term is the sum over the initial segment of the naturals. -/
theorem sum_fin_eq_range {β : Type*} [AddCommMonoid β] (n : ℕ) (f : ℕ → β) :
    ∑ k : Fin n, f k.val = ∑ k ∈ Finset.range n, f k :=
  (Finset.sum_range f).symm

end Idealize.ShloMosaic.BlockSum

end
-- ==== Proof.BlockReads.lean ====
/-
  The two input blocks of a grid point, read through to the arguments.

  The grid is 8 x 4 x 4, its points numbered in row-major order: point t has coordinates (t / 16, t / 4 % 4, t % 4),
  the last one running along the contraction axis. The x window's block at point t is the block (t / 16, t % 4) of x,
  the weight window's block is the block (t % 4, t / 4 % 4) of the weight matrix; all blocks are 1024 x 1024 and tile
  their arrays. So the entry (r, k) of the x block is x at row 1024 * (t / 16) + r and column 1024 * (t % 4) + k, and
  likewise for the weight block.

  The weight matrix the region finds is written by the host operations before it: the diagonals vector, after a change
  of float format that is the identity on the extended reals, gathered at the matrix of start words (the word of the row
  plus the word of the column). That is the very matrix the reference gathers.
-/
import proofs.«174518_j35399120454032_2_alg».proof.Proof.Gen.KernelIdeal.Frame
import proofs.«174518_j35399120454032_2_alg».proof.Proof.HankelMatrix
import proofs.«174518_j35399120454032_2_alg».proof.Proof.LibBlockSum
import Idealize.ShloMosaic.Lib.StableHlo.Run
import Idealize.ShloMosaic.Lib.ValueIdx

noncomputable section

namespace Cert.BlockReads

open Cert.KernelIdeal Cert.KernelIdeal.Gen
open Idealize.ShloMosaic Idealize.ShloMosaic.TcCoe Idealize.SL.Sem Idealize.ShloMosaic.ValueIdx Idealize.ShloMosaic.BlockSum

variable (m : (ℓ : Loc nD τ sig) → Buf (Elt Ideal) ℓ)

/-- The argument x on core c, as launched. -/
abbrev xArg (c : Dev nD) : S8192x4096.Idx → EReal := m ((c : Thread nD τ).loc main_arg0)

/-- The diagonals vector on core c, as launched. -/
abbrev dArg (c : Dev nD) : S8191.Idx → EReal := m ((c : Thread nD τ).loc main_arg1)

/-- The weight matrix W(i, j) = d[i + j] of the diagonals vector on core c. -/
abbrev wMat (c : Dev nD) : S4096x4096.Idx → EReal :=
  Cert.ReferenceIdeal.Read.val_main_v13 (F := Ideal) (dArg m c)

/-- The weight array the region finds is the weight matrix of the launched diagonals vector. -/
theorem weight_entry (c : Dev nD) : (V m c main_v14 : S4096x4096.Idx → EReal) = wMat m c := by
  dsimp only [Gen.V, Gen.hostOps0]
  after_results
  rfl

/-- The x window's block index at point t. -/
theorem x_index : ∀ t : Fin cfg0.N, win0_0.index t (0 : Fin 2) = t.val / 16 ∧ win0_0.index t (1 : Fin 2) = t.val % 4 :=
  (by decide +kernel : ∀ t : Fin grid0.N, _)

/-- The weight window's block index at point t. -/
theorem w_index : ∀ t : Fin cfg0.N, win0_1.index t (0 : Fin 2) = t.val % 4 ∧ win0_1.index t (1 : Fin 2) = t.val / 4 % 4 :=
  (by decide +kernel : ∀ t : Fin grid0.N, _)

/-- The entry (r, k) of the x block at point t. -/
theorem x_block (c : Dev nD) (t : Fin cfg0.N) (r k : Fin 1024) :
    iblk m c 0 t (ix2 r k) = at2 (xArg m c) (1024 * (t.val / 16) + r.val) (1024 * (t.val % 4) + k.val) := by
  obtain ⟨e0, e1⟩ := x_index t
  show V m c main_arg0 (((cfg0.win 0).blk t).view.emb (ix2 r k)) = _
  rw [V_main_arg0]
  refine (at2_val (xArg m c) _).symm.trans ?_
  show at2 (xArg m c) (win0_0.index t (0 : Fin 2) * 1024 + 1 * r.val) (win0_0.index t (1 : Fin 2) * 1024 + 1 * k.val) = _
  rw [e0, e1, show t.val / 16 * 1024 + 1 * r.val = 1024 * (t.val / 16) + r.val by omega,
    show t.val % 4 * 1024 + 1 * k.val = 1024 * (t.val % 4) + k.val by omega]

/-- The entry (k, q) of the weight block at point t. -/
theorem w_block (c : Dev nD) (t : Fin cfg0.N) (k q : Fin 1024) :
    iblk m c 1 t (ix2 k q) = at2 (wMat m c) (1024 * (t.val % 4) + k.val) (1024 * (t.val / 4 % 4) + q.val) := by
  obtain ⟨e0, e1⟩ := w_index t
  show (V m c main_v14 : S4096x4096.Idx → EReal) (((cfg0.win 1).blk t).view.emb (ix2 k q)) = _
  rw [weight_entry]
  refine (at2_val (wMat m c) _).symm.trans ?_
  show at2 (wMat m c) (win0_1.index t (0 : Fin 2) * 1024 + 1 * k.val) (win0_1.index t (1 : Fin 2) * 1024 + 1 * q.val) = _
  rw [e0, e1, show t.val % 4 * 1024 + 1 * k.val = 1024 * (t.val % 4) + k.val by omega,
    show t.val / 4 % 4 * 1024 + 1 * q.val = 1024 * (t.val / 4 % 4) + q.val by omega]

end Cert.BlockReads

end
-- ==== Proof.Accumulated.lean ====
/-
  The kernel's result, index by index, and its agreement with the reference.

  The output block (b / 1024, o / 1024) is written back once, after the run of four consecutive grid points that share
  it: the first fills it with zeros and adds its product, the next three each add theirs. Point s of the run multiplies
  the block (b / 1024, s) of x with the block (s, o / 1024) of the weight matrix, so the entry (b, o) ends as

      0 + sum over s < 4 of ( sum over k < 1024 of x(b, 1024 s + k) * W(1024 s + k, o) ).

  The four block sums are one sum over j < 4096 of x(b, j) * W(j, o) -- only commutativity and associativity of the
  addition of extended reals are used, so no input needs to be finite -- and W(j, o) = W(o, j) because the weight
  matrix is symmetric. That is the reference's sum over j of x(b, j) * W(o, j).
-/
import proofs.«174518_j35399120454032_2_alg».proof.Proof.Gen.KernelIdeal.Value
import proofs.«174518_j35399120454032_2_alg».proof.Proof.BlockPayload
import proofs.«174518_j35399120454032_2_alg».proof.Proof.BlockReads
import proofs.«174518_j35399120454032_2_alg».proof.Proof.HankelMatrix
import proofs.«174518_j35399120454032_2_alg».proof.Proof.LibBlockSum

noncomputable section

open scoped BigOperators

namespace Cert.Accumulated

open Cert.KernelIdeal Cert.KernelIdeal.Gen Cert.BlockReads
open Idealize.ShloMosaic Idealize.ShloMosaic.TcCoe Idealize.SL.Sem Idealize.ShloMosaic.ValueIdx Idealize.ShloMosaic.BlockSum

variable (m : (ℓ : Loc nD τ sig) → Buf (Elt Ideal) ℓ)

/-- What grid point n adds to the entry y of its output block: the product of its x block's row with its weight
    block's column, written over the arrays at natural coordinates (so that it is defined for every natural n). -/
def addend (c : Dev nD) (n : ℕ) (y : S1024x1024.Idx) : EReal :=
  ∑ k : Fin 1024, at2 (xArg m c) (1024 * (n / 16) + (y 0).val) (1024 * (n % 4) + k.val)
    * at2 (wMat m c) (1024 * (n % 4) + k.val) (1024 * (n / 4 % 4) + (y 1).val)

/-- The first point of a run leaves zero plus its addend. -/
theorem reset_apply (c : Dev nD) (n : ℕ) (h : n < cfg0.N) (y : S1024x1024.Idx) :
    Cert.KernelIdeal.Value.reset2 m c n h y = 0 + addend m c n y := by
  unfold Cert.KernelIdeal.Value.reset2
  refine (BlockPayload.update_apply (iblk m c 0 ⟨n, h⟩) (k0_pay1 (F := Ideal)) (iblk m c 1 ⟨n, h⟩) y).trans ?_
  rw [BlockPayload.fill_apply]
  refine congrArg (0 + ·) (Finset.sum_congr rfl fun k _ => ?_)
  exact congrArg₂ (· * ·) (x_block m c ⟨n, h⟩ (y 0) k) (w_block m c ⟨n, h⟩ k (y 1))

/-- Every later point of a run adds its addend to what the point before left. -/
theorem step_apply (c : Dev nD) (n : ℕ) (h : n < cfg0.N) (acc : Vec Ideal S1024x1024 .f32) (y : S1024x1024.Idx) :
    Cert.KernelIdeal.Value.step2 m c n h acc y = acc y + addend m c n y := by
  unfold Cert.KernelIdeal.Value.step2
  refine (BlockPayload.update_apply (iblk m c 0 ⟨n, h⟩) acc (iblk m c 1 ⟨n, h⟩) y).trans ?_
  refine congrArg (acc y + ·) (Finset.sum_congr rfl fun k _ => ?_)
  exact congrArg₂ (· * ·) (x_block m c ⟨n, h⟩ (y 0) k) (w_block m c ⟨n, h⟩ k (y 1))

/-- A run of four points starting at b leaves zero plus the four addends. -/
theorem fold_apply (c : Dev nD) (b : ℕ) (h : b + 3 < cfg0.N) (y : S1024x1024.Idx) :
    Pipeline.accAt (Cert.KernelIdeal.Value.reset2 m c) (Cert.KernelIdeal.Value.step2 m c) b 3 h y
      = 0 + ∑ s ∈ Finset.range 4, addend m c (b + s) y :=
  Pipeline.accAt_add_apply (ι := S1024x1024.Idx) (β := EReal)
    (Cert.KernelIdeal.Value.reset2 m c) (Cert.KernelIdeal.Value.step2 m c) (fun _ => 0) (addend m c) b 3
    (fun h i => reset_apply m c b h i) (fun n h acc i _ _ => step_apply m c n h acc i) 3 le_rfl h y

/-- A point's addend once its row, its place along the contraction axis and its column are known. -/
theorem addend_eq (c : Dev nD) (n : ℕ) (y : S1024x1024.Idx) (row s col : ℕ)
    (hr : 1024 * (n / 16) + (y 0).val = row) (hs : n % 4 = s) (hc : 1024 * (n / 4 % 4) + (y 1).val = col) :
    addend m c n y
      = ∑ k ∈ Finset.range 1024, at2 (xArg m c) row (1024 * s + k) * at2 (wMat m c) (1024 * s + k) col := by
  subst hr hs hc
  exact sum_fin_eq_range 1024 fun k =>
    at2 (xArg m c) (1024 * (n / 16) + (y 0).val) (1024 * (n % 4) + k)
      * at2 (wMat m c) (1024 * (n % 4) + k) (1024 * (n / 4 % 4) + (y 1).val)

/-- THE KERNEL'S RESULT at (b, o): the sum over j of x(b, j) * W(o, j). -/
theorem kernel_apply (c : Dev nD) (b : Fin 8192) (o : Fin 4096) :
    Cert.KernelIdeal.Value.G2 m c (ix2 b o) = ∑ j : Fin 4096, xArg m c (ix2 b j) * wMat m c (ix2 o j) := by
  have hb : b.val < 8192 := b.isLt
  have ho : o.val < 4096 := o.isLt
  have hN : cfg0.N = 128 := N_0
  have hrun : Cert.KernelIdeal.Value.run2Of (ix2 b o) = 4 * (b.val / 1024) + o.val / 1024 := by
    show 4 * (b.val / 1024 - 0) + 1 * (o.val / 1024 - 0) = _
    omega
  have hl0 : ((Cert.KernelIdeal.Value.loc2Of (ix2 b o)) 0).val = b.val % 1024 := rfl
  have hl1 : ((Cert.KernelIdeal.Value.loc2Of (ix2 b o)) 1).val = o.val % 1024 := rfl
  have hlt : 4 * Cert.KernelIdeal.Value.run2Of (ix2 b o) + 3 < cfg0.N := by rw [hrun, hN]; omega
  have hfold : Cert.KernelIdeal.Value.G2 m c (ix2 b o)
      = Pipeline.accAt (Cert.KernelIdeal.Value.reset2 m c) (Cert.KernelIdeal.Value.step2 m c)
          (4 * Cert.KernelIdeal.Value.run2Of (ix2 b o)) 3 hlt (Cert.KernelIdeal.Value.loc2Of (ix2 b o)) := by
    unfold Cert.KernelIdeal.Value.G2
    exact dif_pos hlt
  refine hfold.trans ((fold_apply m c _ hlt _).trans ((zero_add _).trans ?_))
  have hpt : ∀ s ∈ Finset.range 4,
      addend m c (4 * Cert.KernelIdeal.Value.run2Of (ix2 b o) + s) (Cert.KernelIdeal.Value.loc2Of (ix2 b o))
        = ∑ k ∈ Finset.range 1024,
            (fun j => at2 (xArg m c) b.val j * at2 (wMat m c) j o.val) (1024 * s + k) := by
    intro s hs
    have hs4 : s < 4 := Finset.mem_range.mp hs
    refine addend_eq m c _ _ b.val s o.val ?_ ?_ ?_
    · rw [hl0, hrun]; omega
    · rw [hrun]; omega
    · rw [hl1, hrun]; omega
  rw [Finset.sum_congr rfl hpt,
    ← sum_range_blocks (fun j => at2 (xArg m c) b.val j * at2 (wMat m c) j o.val) 4 1024,
    show 4 * 1024 = 4096 from rfl, Finset.sum_range]
  refine Finset.sum_congr rfl fun j _ => ?_
  show at2 (xArg m c) b.val j.val * at2 (wMat m c) j.val o.val = _
  rw [at2_ix2, at2_ix2]
  exact congrArg (xArg m c (ix2 b j) * ·) (Cert.Hankel.weight_symm (dArg m c) j o)

/-- The two results are one function of the arguments. -/
theorem result_eq (c : Dev nD) :
    Cert.ReferenceIdeal.Read.val_main_v14 (F := Ideal) (xArg m c) (dArg m c)
      = (Cert.KernelIdeal.Value.G2 m c : S8192x4096.Idx → EReal) := by
  funext i
  obtain ⟨b, o, rfl⟩ : ∃ (b : Fin 8192) (o : Fin 4096), i = ix2 b o := ⟨i 0, i 1, eq_ix2 i⟩
  rw [Cert.Hankel.reference_apply, kernel_apply]

end Cert.Accumulated

end
-- ==== Proof.lean ====
/-
  A Toeplitz-structured linear layer: out = x W^T with W(i, j) = d[i + j] for a vector d of 8191 diagonals, x of
  shape 8192 x 4096 and W of shape 4096 x 4096.

  The kernel builds the transposed matrix Wt(j, i) = d[j + i] on the host (one gather of d at the matrix of sums of
  row and column numbers) and multiplies x by it in 1024 x 1024 blocks over an 8 x 4 x 4 grid, the output block held
  across the four points along the contraction axis: zero at the first, each point's block product added. The
  reference gathers W(i, j) = d[i + j] the same way and contracts x's axis 1 with W's axis 1.

  On the extended reals the change of float format is the identity, so the kernel's entry (b, o) is
  zero plus four sums of 1024 products x(b, j) * d[j + o], which is the one sum over j < 4096 (addition is commutative
  and associative; no finiteness of the inputs is needed), and d[j + o] = d[o + j] because the two start words are the
  same sum of 32-bit words in the other order. That is the reference's entry (Proof/Accumulated.lean, over
  Proof/HankelMatrix.lean for the reference, Proof/BlockPayload.lean and Proof/BlockReads.lean for one grid point).

  The three frame claims are the generated frame of the word-level kernel and the two value runs with the result
  dropped; the idealization rewrote nothing, so its claim is trivial.
-/
import proofs.«174518_j35399120454032_2_alg».proof.Defs
import proofs.«174518_j35399120454032_2_alg».proof.Proof.Gen.Kernel.Frame
import proofs.«174518_j35399120454032_2_alg».proof.Proof.Gen.KernelIdeal.Value
import proofs.«174518_j35399120454032_2_alg».proof.Proof.Gen.Pre_finite_inputs
import proofs.«174518_j35399120454032_2_alg».proof.Proof.Gen.ReferenceIdeal.Run
import proofs.«174518_j35399120454032_2_alg».proof.Proof.Gen.ReferenceIdeal.Read
import proofs.«174518_j35399120454032_2_alg».proof.Proof.Accumulated
import Idealize.ShloMosaic.Adequacy
import Idealize.ShloMosaic.Init

noncomputable section

namespace Cert.Proof

open Idealize.ShloMosaic Idealize.SL.Sem

/-- The idealized kernel terminates without a fault and leaves its arguments as launched. -/
theorem frame_KernelIdeal : frame_KernelIdeal := fun m ρ _ =>
  (θ_run Cert.KernelIdeal.defs _ _).mono (fun _ h c => (h c).2) (Cert.KernelIdeal.Value.run (F := Ideal) m ρ)

/-- The idealized reference terminates without a fault and leaves its arguments as launched. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x and on the diagonals, both programs end with the same array: entry (b, o) is the
    sum over j of x(b, j) * d[o + j]. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v14_eq _ _).trans (Cert.Accumulated.result_eq m c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
